-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x3072 : Shape := ⟨2, ![1024, 3072]⟩
abbrev S2x3072 : Shape := ⟨2, ![2, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S2x3072 : S_.BroadcastsInDim S2x3072 (![] : Fin 0 → Fin S2x3072.rank)
  reducesTo_S2x3072_S_d0_1 : S2x3072.ReducesTo [0, 1] S_

variable [Facts]

def fn_part1 {F : FTy → Type} [FloatOps F] (main_arg4 : FVec F S2x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S2x3072 .f32 := Host.absf main_arg4
  let main_cst_6 : FVec F S_ .f32 := constant S_ .f32 0x7F800000#32
  let main_v20 : FVec F S2x3072 .f32 := broadcastInDim S2x3072 ![] bcast_S_S2x3072 main_cst_6
  let main_v21 : IVec S2x3072 1 := cmpf .olt main_v19 main_v20
  let main_c_7 : IVec S_ 1 := constantI S_ 1 1#1
  let main_v22 : IVec S_ 1 := (fun x v => Host.reduce IntOp.andi x v reducesTo_S2x3072_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024x3072 .f32) (main_arg3 : FVec F S1024x3072 .f32) (main_arg4 : FVec F S2x3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_v13 main_v16
-- ==== Kernel.lean ====
abbrev S8192x1024 : Shape := ⟨2, ![8192, 1024]⟩
abbrev S1024x3072 : Shape := ⟨2, ![1024, 3072]⟩
abbrev S2x3072 : Shape := ⟨2, ![2, 3072]⟩
abbrev S512x1024 : Shape := ⟨2, ![512, 1024]⟩
abbrev S512x3072 : Shape := ⟨2, ![512, 3072]⟩
abbrev S1x2048 : Shape := ⟨2, ![1, 2048]⟩
abbrev S512x2048 : Shape := ⟨2, ![512, 2048]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x3072, .f32⟩
  | .hbm, ⟨3, _⟩ => ⟨S1024x3072, .f32⟩
  | .hbm, ⟨4, _⟩ => ⟨S2x3072, .f32⟩
  | .hbm, ⟨5, _⟩ => ⟨S1024x3072, .bf16⟩
  | .hbm, ⟨6, _⟩ => ⟨S1024x3072, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x3072, .bf16⟩
  | .local _ .vmem, ⟨5, _⟩ => ⟨S1024x3072, .bf16⟩
  | .local _ .vmem, ⟨6, _⟩ => ⟨S2x3072, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S2x3072_S1x2048_0_0 : ∀ a, (![0, 0] : Fin 2 → Nat) a + S1x2048.size a ≤ S2x3072.size a
  h_S1x2048 : 0 < S1x2048.numel
  inb_S2x3072_S1x2048_1_0 : ∀ a, (![1, 0] : Fin 2 → Nat) a + S1x2048.size a ≤ S2x3072.size a
  slices_S512x3072_o0_0_S512x2048 : S512x3072.Slices ![0, 0] S512x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S2x3072_S1x1024_0_2048 : ∀ a, (![0, 2048] : Fin 2 → Nat) a + S1x1024.size a ≤ S2x3072.size a
  h_S1x1024 : 0 < S1x1024.numel
  inb_S2x3072_S1x1024_1_2048 : ∀ a, (![1, 2048] : Fin 2 → Nat) a + S1x1024.size a ≤ S2x3072.size a
  slices_S512x3072_o0_2048_S512x1024 : S512x3072.Slices ![0, 2048] S512x1024
  broadcasts_S1x1024_S512x1024 : S1x1024.Broadcasts S512x1024
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x3072.size a ≤ S2x3072.size a
  hwx0_4 : ∀ i : grid0.Coords, EltTy.bits .f32 = 32 ∨ (Rect.block (s := S2x3072) S2x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x3072 : Shape := ⟨2, ![1024, 3072]⟩
abbrev S2x3072 : Shape := ⟨2, ![2, 3072]⟩
abbrev S1x3072 : Shape := ⟨2, ![1, 3072]⟩
abbrev S3072 : Shape := ⟨1, ![3072]⟩
abbrev S8192x3072 : Shape := ⟨2, ![8192, 3072]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x3072, .f32⟩
  | .hbm, ⟨3, _⟩ => ⟨S1024x3072, .f32⟩
  | .hbm, ⟨4, _⟩ => ⟨S2x3072, .f32⟩
  | .hbm, ⟨5, _⟩ => ⟨S1x3072, .f32⟩
  | .hbm, ⟨6, _⟩ => ⟨S3072, .f32⟩
  | .hbm, ⟨7, _⟩ => ⟨S1x3072, .f32⟩
  | .hbm, ⟨8, _⟩ => ⟨S3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  slices_S2x3072_S1x3072_0_0 : S2x3072.Slices ![0, 0] S1x3072
  shapeCasts_S1x3072_S3072 : S1x3072.ShapeCasts S3072
  slices_S2x3072_S1x3072_1_0 : S2x3072.Slices ![1, 0] S1x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  bcast_S_S8192x1024 : S_.BroadcastsInDim S8192x1024 (![] : Fin 0 → Fin S8192x1024.rank)
  dot_S8192x1024_S1024x3072_S8192x3072_1_0_0_1_n_n_wf : DotDims.WF S8192x1024 S1024x3072 S8192x3072 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf

class Facts : Prop extends Facts₀ where

variable [Facts]
-- ==== Proof.GruSpec.lean ====
/-
  The GRU cell as ONE function of the five argument arrays, index by index, on the extended reals.

  For a row `p` of the batch and a unit `q`, with `X·K` and `H·R` the two projections (each entry a sum of 1024 products),
  `b₀`, `b₁` the two bias rows, and the three gate columns `q`, `q + 1024`, `q + 2048` of a projection:

      z  = σ ((X·K)[p, q]        + b₀[q])        + ((H·R)[p, q]        + b₁[q]))
      r  = σ ((X·K)[p, q + 1024] + b₀[q + 1024]) + ((H·R)[p, q + 1024] + b₁[q + 1024]))
      hh = tanh (((X·K)[p, q + 2048] + b₀[q + 2048]) + r · ((H·R)[p, q + 2048] + b₁[q + 2048]))
      out[p, q] = z · H[p, q] + (1 − z) · hh

  where `σ u = min 1 (max 0 (c · u + ½))` is the hard sigmoid, `c` the single-precision number nearest to one fifth (kept as
  its word: both programs spell the same word, so it is never evaluated).

  The gates' pre-activations are written here as (projection + bias) + (projection + bias). Summing the two projections first
  and the two biases first, (P + P') + (b + b'), is the same extended real: addition on the extended reals is commutative and
  associative with no finiteness side condition (`gate_regroup`).
-/
import Idealize.ShloMosaic.PureOps.Ideal
import Idealize.ShloMosaic.PureOps.Ideal.Laws
import Idealize.ShloMosaic.Lib.ValueIdx

noncomputable section

open scoped BigOperators

namespace Cert.Gru

open Idealize.ShloMosaic Idealize.ShloMosaic.ValueIdx

/-- The batch-by-units shape of the inputs, the previous state and the result. -/
abbrev SAct : Shape := ⟨2, ![8192, 1024]⟩
/-- The shape of each of the two weight matrices: 1024 rows, three gates of 1024 columns. -/
abbrev SWt : Shape := ⟨2, ![1024, 3072]⟩
/-- The shape of the bias: one row for the input projection, one for the recurrent projection. -/
abbrev SBias : Shape := ⟨2, ![2, 3072]⟩

/-- The hard sigmoid `min 1 (max 0 (c · u + ½))`, its four literals as their single-precision words. -/
def hardSigmoid (u : EReal) : EReal :=
  min (Ideal.ofBits .f32 0x3F800000#32)
    (max (Ideal.ofBits .f32 0x00000000#32) (Ideal.ofBits .f32 0x3E4CCCCD#32 * u + Ideal.ofBits .f32 0x3F000000#32))

/-- Entry `(p, j)` of the product of an activation matrix with a weight matrix: the sum over the 1024 contracted positions. -/
def proj (a : SAct.Idx → EReal) (w : SWt.Idx → EReal) (p : Fin 8192) (j : Fin 3072) : EReal :=
  ∑ k : Fin 1024, a (ix2 p k) * w (ix2 k j)

/-- Column `q` of the update gate's third of a projection. -/
abbrev colZ (q : Fin 1024) : Fin 3072 := ⟨q.val, by have := q.isLt; omega⟩
/-- Column `q` of the reset gate's third. -/
abbrev colR (q : Fin 1024) : Fin 3072 := ⟨q.val + 1024, by have := q.isLt; omega⟩
/-- Column `q` of the candidate state's third. -/
abbrev colH (q : Fin 1024) : Fin 3072 := ⟨q.val + 2048, by have := q.isLt; omega⟩

/-- A gate's pre-activation at row `p`, column `j`: (input projection + input bias) + (recurrent projection + recurrent bias). -/
def gatePre (x h : SAct.Idx → EReal) (K R : SWt.Idx → EReal) (b : SBias.Idx → EReal) (p : Fin 8192) (j : Fin 3072) : EReal :=
  (proj x K p j + b (ix2 (0 : Fin 2) j)) + (proj h R p j + b (ix2 (1 : Fin 2) j))

/-- The blend, from the update and reset gates' pre-activations `gz`, `gr`, the candidate's two biased projections `cx`
    (input side) and `cr` (recurrent side), and the previous state's entry `hp`:
    `σ gz · hp + (1 − σ gz) · tanh (cx + σ gr · cr)`. -/
def cellOf (gz gr cx cr hp : EReal) : EReal :=
  hardSigmoid gz * hp + (Ideal.ofBits .f32 0x3F800000#32 - hardSigmoid gz) * Ideal.tanh (cx + hardSigmoid gr * cr)

/-- The new state at row `p`, unit `q`. -/
def cellAt (x h : SAct.Idx → EReal) (K R : SWt.Idx → EReal) (b : SBias.Idx → EReal) (p : Fin 8192) (q : Fin 1024) : EReal :=
  cellOf (gatePre x h K R b p (colZ q)) (gatePre x h K R b p (colR q))
    (proj x K p (colH q) + b (ix2 (0 : Fin 2) (colH q))) (proj h R p (colH q) + b (ix2 (1 : Fin 2) (colH q))) (h (ix2 p q))

/-- The whole result array. -/
def cell (x h : SAct.Idx → EReal) (K R : SWt.Idx → EReal) (b : SBias.Idx → EReal) : SAct.Idx → EReal :=
  fun i => cellAt x h K R b (i 0) (i 1)

/-- Row `r` of the `T`-th block of 512 rows. -/
abbrev rowOf (T : Fin 16) (r : Fin 512) : Fin 8192 := ⟨T.val * 512 + r.val, by have := T.isLt; have := r.isLt; omega⟩

/-- Four summands regrouped: summing the projections first and the biases first gives the same extended real as summing each
    projection with its own bias first. Only commutativity and associativity of `+`: no summand need be finite. -/
theorem gate_regroup (P P' b b' : EReal) : (P + P') + (b + b') = (P + b) + (P' + b') :=
  add_add_add_comm P P' b b'

/-- The gate's pre-activation with the two projections summed first and the two biases summed first. -/
theorem gatePre_grouped (x h : SAct.Idx → EReal) (K R : SWt.Idx → EReal) (b : SBias.Idx → EReal) (p : Fin 8192) (j : Fin 3072) :
    (proj x K p j + proj h R p j) + (b (ix2 (0 : Fin 2) j) + b (ix2 (1 : Fin 2) j)) = gatePre x h K R b p j :=
  gate_regroup _ _ _ _

end Cert.Gru

end
-- ==== Proof.KerProj.lean ====
/-
  The kernel's two matrix products and its bias loads, read at an index, on the extended reals.

  A block of 512 rows of an activation matrix, narrowed to half precision (the identity on the extended reals), times a whole
  weight matrix, accumulated into zeros: entry `(r, j)` is the sum over the 1024 contracted positions `k` of
  `block[r, k] · weights[k, j]`. A bias row loaded through a one-row rectangle at a column offset is that row of the bias
  from that column on.
-/
import proofs.«166055_j2044404432950_2_alg».proof.Proof.Gen.KernelIdeal.Value
import proofs.«166055_j2044404432950_2_alg».proof.Proof.GruSpec
import Idealize.ShloMosaic.PureOps.Ideal.Laws
import Idealize.ShloMosaic.Lib.ValueIdx
import Idealize.ShloMosaic.Lib.Pipeline.Value

noncomputable section

open scoped BigOperators

namespace Cert.Gru.Ker

open Cert.KernelIdeal Cert.KernelIdeal.Gen Idealize.ShloMosaic Idealize.ShloMosaic.ValueIdx Cert.Gru

/-! ## The contraction's operand indices -/

/-- The left operand is read in the output's row. -/
theorem lhs_row (j : S512x3072.Idx) (c : dot_S512x1024_S1024x3072_S512x3072_1_0_0_1_n_n.contr.Idx) :
    (dot_S512x1024_S1024x3072_S512x3072_1_0_0_1_n_n.lhsIdx j c 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl

/-- The left operand's column is the contracted position. -/
theorem lhs_contr (j : S512x3072.Idx) (c : dot_S512x1024_S1024x3072_S512x3072_1_0_0_1_n_n.contr.Idx) :
    (dot_S512x1024_S1024x3072_S512x3072_1_0_0_1_n_n.lhsIdx j c 1).val = (c ⟨0, by decide⟩).val :=
  dot_S512x1024_S1024x3072_S512x3072_1_0_0_1_n_n.lhsIdx_val_of_single rfl j c

/-- The right operand's row is the contracted position. -/
theorem rhs_contr (j : S512x3072.Idx) (c : dot_S512x1024_S1024x3072_S512x3072_1_0_0_1_n_n.contr.Idx) :
    (dot_S512x1024_S1024x3072_S512x3072_1_0_0_1_n_n.rhsIdx j c 0).val = (c ⟨0, by decide⟩).val :=
  dot_S512x1024_S1024x3072_S512x3072_1_0_0_1_n_n.rhsIdx_val_of_single rfl j c

/-- The right operand is read in the output's column. -/
theorem rhs_col (j : S512x3072.Idx) (c : dot_S512x1024_S1024x3072_S512x3072_1_0_0_1_n_n.contr.Idx) :
    (dot_S512x1024_S1024x3072_S512x3072_1_0_0_1_n_n.rhsIdx j c 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into a zero accumulator, at `(r, j)`: the sum over the contracted position. -/
theorem matmul_zero_at (a : FVec Ideal S512x1024 .bf16) (w : FVec Ideal S1024x3072 .bf16) (r : Fin 512) (j : Fin 3072) :
    matmul dot_S512x1024_S1024x3072_S512x3072_1_0_0_1_n_n none a w (constant S512x3072 .f32 0x00000000#32) (ix2 r j)
      = ∑ k : Fin 1024, a (ix2 r k) * w (ix2 k j) := by
  refine (Ideal.matmul_constant_zero_apply dot_S512x1024_S1024x3072_S512x3072_1_0_0_1_n_n none a w (ix2 r j)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r j) ((ValueIdx.contrEquiv1 dot_S512x1024_S1024x3072_S512x3072_1_0_0_1_n_n 1024 rfl rfl).symm k) = ix2 r k := funext fun a => Fin.ext (by
    match a with
    | ⟨0, _⟩ => exact lhs_row _ _
    | ⟨1, _⟩ => exact (lhs_contr _ _).trans hk)
  have er : dot_S512x1024_S1024x3072_S512x3072_1_0_0_1_n_n.rhsIdx (ix2 r j) ((ValueIdx.contrEquiv1 dot_S512x1024_S1024x3072_S512x3072_1_0_0_1_n_n 1024 rfl rfl).symm k) = ix2 k j := funext fun a => Fin.ext (by
    match a with
    | ⟨0, _⟩ => exact (rhs_contr _ _).trans hk
    | ⟨1, _⟩ => exact rhs_col _ _)
  rw [el, er]

/-- The input projection's block: entry `(r, j)` of (block of inputs) · (input weights). -/
theorem inputProj_at (x : Vec Ideal S512x1024 .f32) (w : Vec Ideal S1024x3072 .bf16) (r : Fin 512) (j : Fin 3072) :
    k0_pay2 (F := Ideal) x w (ix2 r j) = ∑ k : Fin 1024, x (ix2 r k) * w (ix2 k j) := by
  unfold k0_pay2
  rw [shapeCast_self]
  exact matmul_zero_at _ _ r j

/-- The recurrent projection's block: entry `(r, j)` of (block of the previous state) · (recurrent weights). -/
theorem recurProj_at (h : Vec Ideal S512x1024 .f32) (w : Vec Ideal S1024x3072 .bf16) (r : Fin 512) (j : Fin 3072) :
    k0_pay3 (F := Ideal) h w (ix2 r j) = ∑ k : Fin 1024, h (ix2 r k) * w (ix2 k j) := by
  unfold k0_pay3
  rw [shapeCast_self]
  exact matmul_zero_at _ _ r j

end Cert.Gru.Ker

end
-- ==== Proof.KerBlock.lean ====
/-
  One block of the kernel's output is the GRU cell on that block's rows.

  At the `T`-th grid point the body sees rows `512·T … 512·T + 511` of the inputs and of the previous state, and the whole
  weight matrices and bias. What it stores at `(r, q)` of its output block is the blend of the update gate, the previous
  state and the candidate, with the gates' pre-activations grouped as (projection + projection) + (bias + bias). Regrouping
  the four summands gives the cell at row `512·T + r`, unit `q`.
-/
import proofs.«166055_j2044404432950_2_alg».proof.Proof.KerProj

noncomputable section

open scoped BigOperators

namespace Cert.Gru.Ker

open Cert.KernelIdeal Cert.KernelIdeal.Gen Cert.KernelIdeal.Value Idealize.ShloMosaic Idealize.ShloMosaic.ValueIdx Cert.Gru

/-- A rectangle's offsets written as the pair (0, 0) are zero on both axes. -/
theorem zero_offsets : (![0, 0] : Fin 2 → Nat) = fun _ => 0 := funext fun a => by fin_cases a <;> rfl

/-- What the body stores at `(r, q)` of its output block, at the `T`-th grid point, is the cell at row `512·T + r`, unit `q`
    — given that the two activation blocks it reads are rows `512·T …` of the whole arrays `X`, `H`. -/
theorem block_at (X H : SAct.Idx → EReal) (T : Fin 16)
    (x0 x1 : Vec Ideal S512x1024 .f32) (K R : Vec Ideal S1024x3072 .bf16) (b : Vec Ideal S2x3072 .f32)
    (hx : ∀ (r : Fin 512) (k : Fin 1024), x0 (ix2 r k) = X (ix2 (rowOf T r) k))
    (hh : ∀ (r : Fin 512) (k : Fin 1024), x1 (ix2 r k) = H (ix2 (rowOf T r) k))
    (r : Fin 512) (q : Fin 1024) :
    out0_5 (F := Ideal) x0 x1 K R b (ix2 r q) = cellAt X H K R b (rowOf T r) q := by
  unfold out0_5
  rw [canon5_eq]
  simp only [View.ld_unit_zero (S := S512x1024) zero_offsets, View.ld_unit_zero (S := S1024x3072) zero_offsets]
  dsimp only [E5]
  -- the block's two projections are the whole arrays' at row 512·T + r
  have ez : ∀ j : Fin 3072, k0_pay2 (F := Ideal) x0 K (ix2 r j) = proj X K (rowOf T r) j := fun j =>
    (inputProj_at x0 K r j).trans (Finset.sum_congr rfl fun k _ => by rw [hx])
  have ez' : ∀ j : Fin 3072, k0_pay3 (F := Ideal) x1 R (ix2 r j) = proj H R (rowOf T r) j := fun j =>
    (recurProj_at x1 R r j).trans (Finset.sum_congr rfl fun k _ => by rw [hh])
  -- where the block index (r, q) reads each projection: column q, q + 1024 or q + 2048 of row r
  have i0 : ix5_0 (ix2 r q) = (ix2 r (colZ q) : S512x3072.Idx) := funext fun a => Fin.ext (by match a with | ⟨0, _⟩ => rfl | ⟨1, _⟩ => rfl)
  have i1 : ix5_1 (ix2 r q) = (ix2 r (colZ q) : S512x3072.Idx) := funext fun a => Fin.ext (by match a with | ⟨0, _⟩ => rfl | ⟨1, _⟩ => rfl)
  have i5 : ix5_5 (ix2 r q) = (ix2 r (colZ q) : S512x3072.Idx) := funext fun a => Fin.ext (by match a with | ⟨0, _⟩ => rfl | ⟨1, _⟩ => rfl)
  have i6 : ix5_6 (ix2 r q) = (ix2 r (colZ q) : S512x3072.Idx) := funext fun a => Fin.ext (by match a with | ⟨0, _⟩ => rfl | ⟨1, _⟩ => rfl)
  have i11 : ix5_11 (ix2 r q) = (ix2 r (colR q) : S512x3072.Idx) := funext fun a => Fin.ext (by match a with | ⟨0, _⟩ => rfl | ⟨1, _⟩ => rfl)
  have i12 : ix5_12 (ix2 r q) = (ix2 r (colR q) : S512x3072.Idx) := funext fun a => Fin.ext (by match a with | ⟨0, _⟩ => rfl | ⟨1, _⟩ => rfl)
  have i9 : ix5_9 (ix2 r q) = (ix2 r (colH q) : S512x3072.Idx) := funext fun a => Fin.ext (by match a with | ⟨0, _⟩ => rfl | ⟨1, _⟩ => rfl)
  have i15 : ix5_15 (ix2 r q) = (ix2 r (colH q) : S512x3072.Idx) := funext fun a => Fin.ext (by match a with | ⟨0, _⟩ => rfl | ⟨1, _⟩ => rfl)
  have i4 : ix5_4 (ix2 r q) = (ix2 r q : S512x1024.Idx) := funext fun a => Fin.ext (by match a with | ⟨0, _⟩ => rfl | ⟨1, _⟩ => rfl)
  -- the bias rows, loaded through one-row rectangles at column 0 (2048 wide) and at column 2048 (1024 wide)
  have b2 : View.ld b r0_2 (ix5_2 (ix2 r q)) = b (ix2 (0 : Fin 2) (colZ q)) :=
    congrArg b (funext fun a => Fin.ext (by match a with | ⟨0, _⟩ => rfl | ⟨1, _⟩ => (show 0 + 1 * q.val = q.val; omega)))
  have b7 : View.ld b r0_2 (ix5_7 (ix2 r q)) = b (ix2 (0 : Fin 2) (colZ q)) :=
    congrArg b (funext fun a => Fin.ext (by match a with | ⟨0, _⟩ => rfl | ⟨1, _⟩ => (show 0 + 1 * q.val = q.val; omega)))
  have b3 : View.ld b r0_3 (ix5_3 (ix2 r q)) = b (ix2 (1 : Fin 2) (colZ q)) :=
    congrArg b (funext fun a => Fin.ext (by match a with | ⟨0, _⟩ => rfl | ⟨1, _⟩ => (show 0 + 1 * q.val = q.val; omega)))
  have b8 : View.ld b r0_3 (ix5_8 (ix2 r q)) = b (ix2 (1 : Fin 2) (colZ q)) :=
    congrArg b (funext fun a => Fin.ext (by match a with | ⟨0, _⟩ => rfl | ⟨1, _⟩ => (show 0 + 1 * q.val = q.val; omega)))
  have b13 : View.ld b r0_2 (ix5_13 (ix2 r q)) = b (ix2 (0 : Fin 2) (colR q)) :=
    congrArg b (funext fun a => Fin.ext (by match a with | ⟨0, _⟩ => rfl | ⟨1, _⟩ => (show 0 + 1 * (q.val + 1024) = q.val + 1024; omega)))
  have b14 : View.ld b r0_3 (ix5_14 (ix2 r q)) = b (ix2 (1 : Fin 2) (colR q)) :=
    congrArg b (funext fun a => Fin.ext (by match a with | ⟨0, _⟩ => rfl | ⟨1, _⟩ => (show 0 + 1 * (q.val + 1024) = q.val + 1024; omega)))
  have b10 : View.ld b r0_4 (ix5_10 (ix2 r q)) = b (ix2 (0 : Fin 2) (colH q)) :=
    congrArg b (funext fun a => Fin.ext (by match a with | ⟨0, _⟩ => rfl | ⟨1, _⟩ => (show 2048 + 1 * q.val = q.val + 2048; omega)))
  have b16 : View.ld b r0_5 (ix5_16 (ix2 r q)) = b (ix2 (1 : Fin 2) (colH q)) :=
    congrArg b (funext fun a => Fin.ext (by match a with | ⟨0, _⟩ => rfl | ⟨1, _⟩ => (show 2048 + 1 * q.val = q.val + 2048; omega)))
  simp only [i0, i1, i5, i6, i11, i12, i9, i15, i4, b2, b7, b3, b8, b13, b14, b10, b16, ez, ez', hh]
  -- (projection + projection) + (bias + bias) is (projection + bias) + (projection + bias)
  unfold cellAt
  rw [← gatePre_grouped X H K R b (rowOf T r) (colZ q), ← gatePre_grouped X H K R b (rowOf T r) (colR q)]
  rfl

end Cert.Gru.Ker

end
-- ==== Proof.KerArray.lean ====
/-
  From the kernel's sixteen output blocks to its whole result array, and its run.

  The grid has sixteen points. At point `t` the two activation windows and the output window sit at block `(t, 0)` — rows
  `512·t … 512·t + 511`, all 1024 columns — and the two weight windows and the bias window at block `(0, 0)`, the whole
  array. The weight windows stage the arrays the host's narrowing to half precision wrote before the region; on the extended
  reals that narrowing is the identity, so they hold the weight arguments themselves. So what point `t` writes back is block
  `t` of the GRU cell of the five arguments; row `i` of the result lies in the block of point `i / 512`; the sixteen blocks
  tile the result array, which therefore ends holding the cell.
-/
import proofs.«166055_j2044404432950_2_alg».proof.Proof.KerBlock
import Idealize.ShloMosaic.Lib.StableHlo.Run

noncomputable section

open scoped BigOperators

namespace Cert.Gru.Ker

open Cert.KernelIdeal Cert.KernelIdeal.Gen Cert.KernelIdeal.Value Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ) (ρ : Dev nD → PrngReg)

/-- The printed index maps over the sixteen grid points: the activation and output windows at block `(t, 0)`, the weight and
    bias windows at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point as a block number below sixteen. -/
abbrev blockNo (t : Fin cfg0.N) : Fin 16 := ⟨t.val, lt_of_lt_of_eq t.isLt N_0⟩

/-! ## The arrays as the region finds them -/

/-- The input weights' half-precision copy is, on the extended reals, the input weights. -/
theorem entry_inWeights (c : Dev nD) :
    (V m c main_v0 : S1024x3072.Idx → EReal) = m ((c : Thread nD τ).loc main_arg2) := by
  dsimp only [Gen.V, Gen.hostOps0]; after_results; rfl

/-- The recurrent weights' half-precision copy is, on the extended reals, the recurrent weights. -/
theorem entry_recWeights (c : Dev nD) :
    (V m c main_v1 : S1024x3072.Idx → EReal) = m ((c : Thread nD τ).loc main_arg3) := by
  dsimp only [Gen.V, Gen.hostOps0]; after_results; rfl

/-! ## Each input window's block, read at an index -/

/-- The inputs' block at point `t`: rows `512·t …` of the inputs. -/
theorem inputs_block (c : Dev nD) (t : Fin cfg0.N) (r : Fin 512) (k : Fin 1024) :
    (iblk m c 0 t : Vec Ideal S512x1024 .f32) (ix2 r k)
      = (m ((c : Thread nD τ).loc main_arg0) : S8192x1024.Idx → EReal) (ix2 (rowOf (blockNo t) r) k) := by
  obtain ⟨e0, e1, -⟩ := block_indices t
  unfold iblk
  rw [View.read_apply, ← V_main_arg0 m c]
  show V m c main_arg0 _ = V m c main_arg0 _
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

/-- The previous state's block at point `t`: rows `512·t …` of the previous state. -/
theorem state_block (c : Dev nD) (t : Fin cfg0.N) (r : Fin 512) (k : Fin 1024) :
    (iblk m c 1 t : Vec Ideal S512x1024 .f32) (ix2 r k)
      = (m ((c : Thread nD τ).loc main_arg1) : S8192x1024.Idx → EReal) (ix2 (rowOf (blockNo t) r) k) := by
  obtain ⟨-, -, e0, e1, -⟩ := block_indices t
  unfold iblk
  rw [View.read_apply, ← V_main_arg1 m c]
  show V m c main_arg1 _ = V m c main_arg1 _
  congr 1
  funext a
  apply Fin.ext
  match a with
  | ⟨0, _⟩ => show win0_1.index t (0 : Fin 2) * 512 + 1 * r.val = t.val * 512 + r.val; rw [e0]; omega
  | ⟨1, _⟩ => show win0_1.index t (1 : Fin 2) * 1024 + 1 * k.val = k.val; rw [e1]; omega

/-- The input weights' window holds, at every point, the whole input weights. -/
theorem inWeights_block (c : Dev nD) (t : Fin cfg0.N) :
    (iblk m c 2 t : Vec Ideal S1024x3072 .bf16) = m ((c : Thread nD τ).loc main_arg2) := by
  obtain ⟨-, -, -, -, e0, e1, -⟩ := block_indices t
  funext j
  obtain ⟨k, n, rfl⟩ : ∃ (k : Fin 1024) (n : Fin 3072), j = ix2 k n := ⟨j 0, j 1, eq_ix2 j⟩
  unfold iblk
  rw [View.read_apply, ← entry_inWeights m c]
  show V m c main_v0 _ = V m c main_v0 _
  congr 1
  funext a
  apply Fin.ext
  match a with
  | ⟨0, _⟩ => show win0_2.index t (0 : Fin 2) * 1024 + 1 * k.val = k.val; rw [e0]; omega
  | ⟨1, _⟩ => show win0_2.index t (1 : Fin 2) * 3072 + 1 * n.val = n.val; rw [e1]; omega

/-- The recurrent weights' window holds, at every point, the whole recurrent weights. -/
theorem recWeights_block (c : Dev nD) (t : Fin cfg0.N) :
    (iblk m c 3 t : Vec Ideal S1024x3072 .bf16) = m ((c : Thread nD τ).loc main_arg3) := by
  obtain ⟨-, -, -, -, -, -, e0, e1, -⟩ := block_indices t
  funext j
  obtain ⟨k, n, rfl⟩ : ∃ (k : Fin 1024) (n : Fin 3072), j = ix2 k n := ⟨j 0, j 1, eq_ix2 j⟩
  unfold iblk
  rw [View.read_apply, ← entry_recWeights m c]
  show V m c main_v1 _ = V m c main_v1 _
  congr 1
  funext a
  apply Fin.ext
  match a with
  | ⟨0, _⟩ => show win0_3.index t (0 : Fin 2) * 1024 + 1 * k.val = k.val; rw [e0]; omega
  | ⟨1, _⟩ => show win0_3.index t (1 : Fin 2) * 3072 + 1 * n.val = n.val; rw [e1]; omega

/-- The bias window holds, at every point, the whole bias. -/
theorem bias_block (c : Dev nD) (t : Fin cfg0.N) :
    (iblk m c 4 t : Vec Ideal S2x3072 .f32) = m ((c : Thread nD τ).loc main_arg4) := by
  obtain ⟨-, -, -, -, -, -, -, -, e0, e1, -⟩ := block_indices t
  funext j
  obtain ⟨s, n, rfl⟩ : ∃ (s : Fin 2) (n : Fin 3072), j = ix2 s n := ⟨j 0, j 1, eq_ix2 j⟩
  unfold iblk
  rw [View.read_apply, ← V_main_arg4 m c]
  show V m c main_arg4 _ = V m c main_arg4 _
  congr 1
  funext a
  apply Fin.ext
  match a with
  | ⟨0, _⟩ => show win0_4.index t (0 : Fin 2) * 2 + 1 * s.val = s.val; rw [e0]; omega
  | ⟨1, _⟩ => show win0_4.index t (1 : Fin 2) * 3072 + 1 * n.val = n.val; rw [e1]; omega

/-! ## What a point writes back, and the whole array -/

/-- The GRU cell of the five arguments as launched. -/
abbrev result (c : Dev nD) : S8192x1024.Idx → EReal :=
  cell (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes back block `t` of the cell. -/
theorem flushed_cell (c : Dev nD) (t : Fin cfg0.N) :
    (dats m 0 c).flushed 5 t = ((cfg0.win 5).blk t).view.read (Elt Ideal) (result m c) := by
  obtain ⟨-, -, -, -, -, -, -, -, -, -, e0, e1⟩ := block_indices t
  rw [flushed5]
  funext j
  obtain ⟨r, q, rfl⟩ : ∃ (r : Fin 512) (q : Fin 1024), j = ix2 r q := ⟨j 0, j 1, eq_ix2 j⟩
  show out0_5 (iblk m c 0 t) (iblk m c 1 t) (iblk m c 2 t) (iblk m c 3 t) (iblk m c 4 t) (ix2 r q)
      = result m c (((cfg0.win 5).blk t).view.emb (ix2 r q))
  refine (block_at (m ((c : Thread nD τ).loc main_arg0)) (m ((c : Thread nD τ).loc main_arg1)) (blockNo t)
    (iblk m c 0 t) (iblk m c 1 t) (iblk m c 2 t) (iblk m c 3 t) (iblk m c 4 t)
    (inputs_block m c t) (state_block m c t) r q).trans ?_
  rw [inWeights_block m c t, recWeights_block m c t, bias_block m c t]
  have eidx : ((cfg0.win 5).blk t).view.emb (ix2 r q) = (ix2 (rowOf (blockNo t) r) q : S8192x1024.Idx) := by
    funext a
    apply Fin.ext
    match a with
    | ⟨0, _⟩ => show win0_5.index t (0 : Fin 2) * 512 + 1 * r.val = t.val * 512 + r.val; rw [e0]; omega
    | ⟨1, _⟩ => show win0_5.index t (1 : Fin 2) * 1024 + 1 * q.val = q.val; rw [e1]; omega
  rw [eidx]
  rfl

/-- An index of the result array is in point `t`'s block iff each coordinate is in the block's range on its axis. -/
theorem mem_block (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2).slice (win0_5.rect t)).set ↔ _
  rw [View.set_slice_whole, Rect.mem_set_unit]
  exact Iff.rfl

/-- Every index of the result array lies in the block of the point numbered by its row divided by 512. -/
theorem blocks_cover (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  let t : Fin cfg0.N := ⟨(i 0).val / 512, lt_of_lt_of_eq (by omega : (i 0).val / 512 < 16) N_0.symm⟩
  obtain ⟨-, -, -, -, -, -, -, -, -, -, e0, e1⟩ := block_indices t
  have ht : t.val = (i 0).val / 512 := rfl
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- The result array after the run is the cell of the arguments. -/
theorem final_cell (c : Dev nD) : (dats m 0 c).arrAt 5 cfg0.N = result m c :=
  (dats m 0 c).arrAt_eq_of_cover 5 (result m c) (fun t _ => flushed_cell m c t) blocks_cover

/-- The kernel's run: every weakly fair execution ends with the result array at the cell of the arguments, the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_cell m c), (h c).2⟩) (run_blocks m ρ)

end Cert.Gru.Ker

end
-- ==== Proof.RefCell.lean ====
/-
  The reference program's result is the GRU cell of its arguments.

  Its last stage, read one operation at a time at an index `i = (p, q)`: each projection's entry is the sum over the
  contracted position; each bias row reaches `(p, j)` through a slice of one row, a reshape to a vector and two broadcasts,
  so it is read at `(row, j)` whatever `p`; the three column slices read a projection at `q`, `q + 1024`, `q + 2048`; the clip
  is `min hi (max lo ·)`. With the composed index functions identified with those coordinates, the stages' term is the cell's
  term, literal for literal.
-/
import proofs.«166055_j2044404432950_2_alg».proof.Proof.Gen.ReferenceIdeal.Read
import proofs.«166055_j2044404432950_2_alg».proof.Proof.GruSpec

noncomputable section

open scoped BigOperators

namespace Cert.Gru.Ref

open Cert.ReferenceIdeal Cert.ReferenceIdeal.Read Idealize.ShloMosaic Idealize.ShloMosaic.ValueIdx Cert.Gru

/-- The reference's last stage is the cell, index by index. -/
theorem stage_eq_cell (x0 x1 : (⟨S8192x1024, .f32⟩ : BufTy).Contents (Elt Ideal)) (x2 x3 : (⟨S1024x3072, .f32⟩ : BufTy).Contents (Elt Ideal))
    (x4 : (⟨S2x3072, .f32⟩ : BufTy).Contents (Elt Ideal)) :
    val_main_v37 (F := Ideal) x0 x1 x2 x3 x4 = cell x0 x1 x2 x3 x4 := by
  funext i
  obtain ⟨p, q, rfl⟩ : ∃ (p : Fin 8192) (q : Fin 1024), i = ix2 p q := ⟨i 0, i 1, eq_ix2 i⟩
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_cst_apply, val_main_cst_0_apply, val_main_cst_1_apply, val_main_cst_2_apply, val_main_cst_3_apply, val_main_cst_4_apply, val_main_cst_5_apply, val_main_cst_6_apply, val_main_cst_7_apply, val_main_call0_v0_apply, val_main_call0_v1_apply, val_main_call0_v2_apply, val_main_call0_v3_apply, val_main_call0_v4_apply, val_main_call1_v0_apply, val_main_call1_v1_apply, val_main_call1_v2_apply, val_main_call1_v3_apply, val_main_call1_v4_apply]
  -- the contracted operands: row `p` of the activations, column `q`, `q + 1024`, `q + 2048` of the weights
  have lz : ∀ k : Fin 1024, lidx_main_v4 (idx_main_v8 (ix2 p q)) k = ix2 p k := fun k => funext fun a => Fin.ext (by match a with | ⟨0, _⟩ => rfl | ⟨1, _⟩ => rfl)
  have lr : ∀ k : Fin 1024, lidx_main_v4 (idx_main_v9 (ix2 p q)) k = ix2 p k := fun k => funext fun a => Fin.ext (by match a with | ⟨0, _⟩ => rfl | ⟨1, _⟩ => rfl)
  have lh : ∀ k : Fin 1024, lidx_main_v4 (idx_main_v10 (ix2 p q)) k = ix2 p k := fun k => funext fun a => Fin.ext (by match a with | ⟨0, _⟩ => rfl | ⟨1, _⟩ => rfl)
  have lz' : ∀ k : Fin 1024, lidx_main_v11 (idx_main_v15 (ix2 p q)) k = ix2 p k := fun k => funext fun a => Fin.ext (by match a with | ⟨0, _⟩ => rfl | ⟨1, _⟩ => rfl)
  have lr' : ∀ k : Fin 1024, lidx_main_v11 (idx_main_v16 (ix2 p q)) k = ix2 p k := fun k => funext fun a => Fin.ext (by match a with | ⟨0, _⟩ => rfl | ⟨1, _⟩ => rfl)
  have lh' : ∀ k : Fin 1024, lidx_main_v11 (idx_main_v17 (ix2 p q)) k = ix2 p k := fun k => funext fun a => Fin.ext (by match a with | ⟨0, _⟩ => rfl | ⟨1, _⟩ => rfl)
  have rz : ∀ k : Fin 1024, ridx_main_v4 (idx_main_v8 (ix2 p q)) k = ix2 k (colZ q) := fun k => funext fun a => Fin.ext (by match a with | ⟨0, _⟩ => rfl | ⟨1, _⟩ => rfl)
  have rr : ∀ k : Fin 1024, ridx_main_v4 (idx_main_v9 (ix2 p q)) k = ix2 k (colR q) := fun k => funext fun a => Fin.ext (by match a with | ⟨0, _⟩ => rfl | ⟨1, _⟩ => (show 1024 + q.val = q.val + 1024; omega))
  have rh : ∀ k : Fin 1024, ridx_main_v4 (idx_main_v10 (ix2 p q)) k = ix2 k (colH q) := fun k => funext fun a => Fin.ext (by match a with | ⟨0, _⟩ => rfl | ⟨1, _⟩ => (show 2048 + q.val = q.val + 2048; omega))
  have rz' : ∀ k : Fin 1024, ridx_main_v11 (idx_main_v15 (ix2 p q)) k = ix2 k (colZ q) := fun k => funext fun a => Fin.ext (by match a with | ⟨0, _⟩ => rfl | ⟨1, _⟩ => rfl)
  have rr' : ∀ k : Fin 1024, ridx_main_v11 (idx_main_v16 (ix2 p q)) k = ix2 k (colR q) := fun k => funext fun a => Fin.ext (by match a with | ⟨0, _⟩ => rfl | ⟨1, _⟩ => (show 1024 + q.val = q.val + 1024; omega))
  have rh' : ∀ k : Fin 1024, ridx_main_v11 (idx_main_v17 (ix2 p q)) k = ix2 k (colH q) := fun k => funext fun a => Fin.ext (by match a with | ⟨0, _⟩ => rfl | ⟨1, _⟩ => (show 2048 + q.val = q.val + 2048; omega))
  -- each bias row, through its slice, reshape and two broadcasts: read at (row, column), whatever `p`
  have hq : q.val < 1024 := q.isLt
  have bz : idx_main_v0 (idx_main_v1 (idx_main_v5 (idx_main_v6 (idx_main_v8 (ix2 p q))))) = ix2 (0 : Fin 2) (colZ q) :=
    funext fun a => Fin.ext (by match a with | ⟨0, _⟩ => rfl | ⟨1, _⟩ => exact Nat.mod_eq_of_lt (by show q.val < 3072; omega))
  have br : idx_main_v0 (idx_main_v1 (idx_main_v5 (idx_main_v6 (idx_main_v9 (ix2 p q))))) = ix2 (0 : Fin 2) (colR q) :=
    funext fun a => Fin.ext (by match a with | ⟨0, _⟩ => rfl | ⟨1, _⟩ => (show (1024 + q.val) % 3072 = q.val + 1024; omega))
  have bh : idx_main_v0 (idx_main_v1 (idx_main_v5 (idx_main_v6 (idx_main_v10 (ix2 p q))))) = ix2 (0 : Fin 2) (colH q) :=
    funext fun a => Fin.ext (by match a with | ⟨0, _⟩ => rfl | ⟨1, _⟩ => (show (2048 + q.val) % 3072 = q.val + 2048; omega))
  have bz' : idx_main_v2 (idx_main_v3 (idx_main_v12 (idx_main_v13 (idx_main_v15 (ix2 p q))))) = ix2 (1 : Fin 2) (colZ q) :=
    funext fun a => Fin.ext (by match a with | ⟨0, _⟩ => rfl | ⟨1, _⟩ => exact Nat.mod_eq_of_lt (by show q.val < 3072; omega))
  have br' : idx_main_v2 (idx_main_v3 (idx_main_v12 (idx_main_v13 (idx_main_v16 (ix2 p q))))) = ix2 (1 : Fin 2) (colR q) :=
    funext fun a => Fin.ext (by match a with | ⟨0, _⟩ => rfl | ⟨1, _⟩ => (show (1024 + q.val) % 3072 = q.val + 1024; omega))
  have bh' : idx_main_v2 (idx_main_v3 (idx_main_v12 (idx_main_v13 (idx_main_v17 (ix2 p q))))) = ix2 (1 : Fin 2) (colH q) :=
    funext fun a => Fin.ext (by match a with | ⟨0, _⟩ => rfl | ⟨1, _⟩ => (show (2048 + q.val) % 3072 = q.val + 2048; omega))
  simp only [lz, lr, lh, lz', lr', lh', rz, rr, rh, rz', rr', rh', bz, br, bh, bz', br', bh']
  rfl

end Cert.Gru.Ref

end
-- ==== Proof.lean ====
/-
  A single-step GRU cell: the tiled kernel against the plain reference, on the extended reals.

  Both programs compute, for every row `p` of the batch and unit `q`,

      out[p, q] = z · H[p, q] + (1 − z) · tanh ((X·K)[p, q + 2048] + b₀[q + 2048] + r · ((H·R)[p, q + 2048] + b₁[q + 2048]))

  with `z`, `r` the hard sigmoids of the update and reset gates' pre-activations (GruSpec.lean). The kernel walks the batch in
  sixteen blocks of 512 rows, multiplies operands narrowed to half precision (the identity on the extended reals), and sums
  the two projections before adding the two biases' sum; the reference adds each bias to its own projection first. The two
  groupings of the four summands agree by commutativity and associativity of addition alone, so the precondition that the
  inputs are finite is never opened.

  The kernel's side: KerProj.lean (its two matrix products at an index), KerBlock.lean (one output block is the cell on that
  block's rows), KerArray.lean (the sixteen blocks tile the result; the kernel's run). The reference's side: RefCell.lean
  (its last stage is the cell). The three frames are the generated ones; the idealization rewrote nothing, so there is
  nothing to preserve.
-/
import proofs.«166055_j2044404432950_2_alg».proof.Defs
import proofs.«166055_j2044404432950_2_alg».proof.Proof.Gen.Kernel
import proofs.«166055_j2044404432950_2_alg».proof.Proof.Gen.Kernel.Frame
import proofs.«166055_j2044404432950_2_alg».proof.Proof.Gen.KernelIdeal
import proofs.«166055_j2044404432950_2_alg».proof.Proof.Gen.KernelIdeal.Frame
import proofs.«166055_j2044404432950_2_alg».proof.Proof.Gen.ReferenceIdeal
import proofs.«166055_j2044404432950_2_alg».proof.Proof.Gen.ReferenceIdeal.Run
import proofs.«166055_j2044404432950_2_alg».proof.Proof.Gen.Pre_finite_inputs
import proofs.«166055_j2044404432950_2_alg».proof.Proof.KerArray
import proofs.«166055_j2044404432950_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the GRU cell of those arguments in their result. -/
theorem algebraic : Cert.algebraic_KernelIdeal_ReferenceIdeal := by
  intro m ρ m' ρ' _ hagree
  refine ⟨fun c => Cert.Gru.Ker.result m c, Cert.Gru.Ker.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.Gru.Ref.stage_eq_cell,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
